-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩

abbrev nBuf : Space → Nat
  | .hbm => 110
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S850000x1, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x128, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S_, .f32⟩
  | .hbm, ⟨107, _⟩ => ⟨S512x128, .f32⟩
  | .hbm, ⟨108, _⟩ => ⟨S50000x1, .i32⟩
  | .hbm, ⟨109, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S850000x1, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x128, .f32⟩
  | .hbm, ⟨106, _⟩ => ⟨S850000x128, .f32⟩
  | .hbm, ⟨107, _⟩ => ⟨S850000x128, .f32⟩
  | .hbm, ⟨108, _⟩ => ⟨S_, .f32⟩
  | .hbm, ⟨109, _⟩ => ⟨S50000x128, .f32⟩
  | .hbm, ⟨110, _⟩ => ⟨S850000x1, .i32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S512x128, .f32⟩
  | .hbm, ⟨117, _⟩ => ⟨S50000x1, .i32⟩
  | .hbm, ⟨118, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.KernelRun.lean ====
/-
  The idealized kernel's run with its final memory named.

  @main is thirteen segments: stretches of host operations and the six kernel launches between them. The contents of
  every buffer at each segment boundary are a fold from the launch memory (`Gen.W0` … `Gen.W13`: a host stretch applies
  its operations, a launch replaces its output array by what its write-backs leave). Every weakly fair execution
  terminates with every unscoped buffer at the last fold's contents, `Gen.W13`; in particular the result buffer, and
  each argument, which no segment writes.
-/
import proofs.«164031_j42417097015744_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold through the thirteen segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run with the result buffer at the last fold's contents and the arguments as launched. -/
theorem run_result : θ_run defs (onTc (τ := τ) (main (F := F))) ⟨m, fun _ => 0, ρ⟩ (fun r => ∀ c : Dev nD,
      r.2.mem ((c.tc : Thread nD τ).loc main_v80) = W13 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v80 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)
    (run_all m ρ)

end Cert.KernelIdeal.Run

end
-- ==== Proof.KernelChain.lean ====
/-
  The graph side of the network: the composites of gathers and segment sums that are the same operations in the two
  programs, named once so that they are carried and never opened.

  With `n = 50000` nodes and `800000` edges, every node also sends a message to itself, so there are `850000` messages:

    sources ei, targets ei   the messages' end points: row 0, respectively row 1, of the edge list followed by 0 … n − 1
    degree dst               the number of messages arriving at each node: ones summed into zeros at the targets
    positive, orZero         `where(deg > 0, deg^(-1/2), 0)`, the inverse square root of the degree
    wrap idx                 an index below zero counted from the end, as an index column for a lookup
    edgeNorm dinv src dst    the weight of a message: `dinv[src] · dinv[dst]`
    aggregate nrm src dst h  `Σ_{messages e arriving at node p} nrm e · h[src e]`: look the features up at the sources,
                             weigh them, and sum them into zeros at the targets
    pool batch h             the node features summed into zeros at each node's graph
-/
import proofs.«164031_j42417097015744_1_alg».proof.KernelIdeal
import proofs.«164031_j42417097015744_1_alg».proof.Proof.Gen.KernelIdeal
import Idealize.ShloMosaic.PureOps.Ideal

noncomputable section

namespace Cert.KernelIdeal.Chain

open Cert.KernelIdeal Cert.KernelIdeal.Facts₀ Idealize.ShloMosaic

def sources (ei : (⟨S2x800000, .i32⟩ : BufTy).Contents (Elt Ideal)) : (⟨S850000, .i32⟩ : BufTy).Contents (Elt Ideal) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def targets (ei : (⟨S2x800000, .i32⟩ : BufTy).Contents (Elt Ideal)) : (⟨S850000, .i32⟩ : BufTy).Contents (Elt Ideal) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

def degree (dst : (⟨S850000, .i32⟩ : BufTy).Contents (Elt Ideal)) : (⟨S50000, .f32⟩ : BufTy).Contents (Elt Ideal) :=
  Host.scatterAdd (F := Ideal) scatter_S50000_S850000x1_S850000_n_0_0_1 (broadcastInDim S50000 ![] bcast_S_S50000 (constant (F := Ideal) S_ .f32 0x00000000#32))
    (broadcastInDim S850000x1 ![0] bcast_S850000_S850000x1_0 dst) (broadcastInDim S850000 ![] bcast_S_S850000 (constant (F := Ideal) S_ .f32 0x3F800000#32))

def positive (deg : (⟨S50000, .f32⟩ : BufTy).Contents (Elt Ideal)) : (⟨S50000, .i1⟩ : BufTy).Contents (Elt Ideal) :=
  cmpf (F := Ideal) .ogt deg (broadcastInDim S50000 ![] bcast_S_S50000 (constant (F := Ideal) S_ .f32 0x00000000#32))

def orZero (mask : (⟨S50000, .i1⟩ : BufTy).Contents (Elt Ideal)) (val : (⟨S50000, .f32⟩ : BufTy).Contents (Elt Ideal))
    (z : (⟨S_, .f32⟩ : BufTy).Contents (Elt Ideal)) : (⟨S50000, .f32⟩ : BufTy).Contents (Elt Ideal) :=
  select mask val (broadcastInDim S50000 ![] bcast_S_S50000 (id z))

def wrap (idx : (⟨S850000, .i32⟩ : BufTy).Contents (Elt Ideal)) : (⟨S850000x1, .i32⟩ : BufTy).Contents (Elt Ideal) :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

def edgeNorm (dinv : (⟨S50000, .f32⟩ : BufTy).Contents (Elt Ideal)) (src dst : (⟨S850000, .i32⟩ : BufTy).Contents (Elt Ideal)) :
    (⟨S850000, .f32⟩ : BufTy).Contents (Elt Ideal) :=
  mulf (F := Ideal) (φ := .f32) (Host.gather gather_S50000_S850000x1_S850000_n_0_n_n_0_1_1 dinv (wrap src))
    (Host.gather gather_S50000_S850000x1_S850000_n_0_n_n_0_1_1 dinv (wrap dst))

def aggregate (nrm : (⟨S850000, .f32⟩ : BufTy).Contents (Elt Ideal)) (src dst : (⟨S850000, .i32⟩ : BufTy).Contents (Elt Ideal))
    (h : (⟨S50000x128, .f32⟩ : BufTy).Contents (Elt Ideal)) : (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (F := Ideal) (φ := .f32) (broadcastInDim S850000x128 ![0, 1] bcast_S850000x1_S850000x128_0_1 (broadcastInDim S850000x1 ![0] bcast_S850000_S850000x1_0 nrm))
      (Host.gather gather_S50000x128_S850000x1_S850000x128_1_0_n_n_0_1_1128 h (wrap src)))

def pool (batch : (⟨S50000, .i32⟩ : BufTy).Contents (Elt Ideal)) (h : (⟨S50000x128, .f32⟩ : BufTy).Contents (Elt Ideal)) :
    (⟨S512x128, .f32⟩ : BufTy).Contents (Elt Ideal) :=
  Host.scatterAdd (F := Ideal) scatter_S512x128_S50000x1_S50000x128_1_0_0_1
    (broadcastInDim S512x128 ![] bcast_S_S512x128 (constant (F := Ideal) S_ .f32 0x00000000#32))
    (broadcastInDim S50000x1 ![0] bcast_S50000_S50000x1_0 batch) h

/-- The weight of every message, from the edge list alone. -/
def norms (ei : (⟨S2x800000, .i32⟩ : BufTy).Contents (Elt Ideal)) : (⟨S850000, .f32⟩ : BufTy).Contents (Elt Ideal) :=
  edgeNorm (orZero (positive (degree (targets ei))) (Host.rsqrt (F := Ideal) (φ := .f32) (degree (targets ei))) (constant (F := Ideal) S_ .f32 0x00000000#32))
    (sources ei) (targets ei)

/-- One aggregation over the graph the edge list describes. -/
def spread (ei : (⟨S2x800000, .i32⟩ : BufTy).Contents (Elt Ideal)) (h : (⟨S50000x128, .f32⟩ : BufTy).Contents (Elt Ideal)) :
    (⟨S50000x128, .f32⟩ : BufTy).Contents (Elt Ideal) :=
  aggregate (norms ei) (sources ei) (targets ei) h

end Cert.KernelIdeal.Chain

end
-- ==== Proof.Layer.lean ====
/-
  One layer of the graph network, entry by entry.

  Each layer multiplies the node features `h : [50000, 128]` by a weight matrix `W : [128, 128]`, aggregates the products
  along the graph's edges, adds a bias row `b : [1, 128]` to every node and, in the first two layers, takes the positive
  part. The aggregation is the same composite of gathers and segment sums in the two programs and is never opened. The three
  other steps are stated here as functions of whole arrays, read at an index:

    linear h W (p, q)   = Σ k, h (p, k) · W (k, q)          row p of h against column q of W
    bias a b (p, q)     = a (p, q) + b (0, q)                the bias row added to every node
    biasRelu a b (p, q) = max (a (p, q) + b (0, q)) 0        … and the positive part taken

  on the extended reals: a change of float format is the identity there, so a product of operands narrowed to bf16 is
  the product of the operands, and a product accumulated into zero is the plain sum.
-/
import Idealize.ShloMosaic.PureOps.Ideal.Laws
import Idealize.ShloMosaic.Lib.ValueIdx

noncomputable section

namespace Cert.Layer

open Idealize.ShloMosaic Idealize.ShloMosaic.ValueIdx
open scoped BigOperators

/-- The node features, the weights and a bias row, as shapes. -/
abbrev Nodes : Shape := ⟨2, ![50000, 128]⟩
abbrev Weights : Shape := ⟨2, ![128, 128]⟩
abbrev Row : Shape := ⟨2, ![1, 128]⟩

/-- The row and the column of an entry of the node features, as numbers below the literal extents. -/
abbrev rowOf (i : Nodes.Idx) : Fin 50000 := ⟨(i 0).val, idx2_lt0 i⟩
abbrev colOf (i : Nodes.Idx) : Fin 128 := ⟨(i 1).val, idx2_lt1 i⟩

theorem eq_row_col (i : Nodes.Idx) : i = ix2 (rowOf i) (colOf i) := by
  funext a; match a with | ⟨0, _⟩ => rfl | ⟨1, _⟩ => rfl

/-- The features times the weights: entry `(p, q)` is row `p` of `h` against column `q` of `W`. -/
def linear (h : Nodes.Idx → EReal) (W : Weights.Idx → EReal) : Nodes.Idx → EReal :=
  fun i => ∑ k : Fin 128, h (ix2 (rowOf i) k) * W (ix2 k (colOf i))

/-- The bias row added to every node. -/
def bias (a : Nodes.Idx → EReal) (b : Row.Idx → EReal) : Nodes.Idx → EReal :=
  fun i => a i + b (ix2 (0 : Fin 1) (colOf i))

/-- The bias row added to every node and the positive part taken (the zero is the float word `0x00000000`). -/
def biasRelu (a : Nodes.Idx → EReal) (b : Row.Idx → EReal) : Nodes.Idx → EReal :=
  fun i => max (a i + b (ix2 (0 : Fin 1) (colOf i))) (Ideal.ofBits .f32 0x00000000#32)

theorem linear_apply (h : Nodes.Idx → EReal) (W : Weights.Idx → EReal) (p : Fin 50000) (q : Fin 128) :
    linear h W (ix2 p q) = ∑ k : Fin 128, h (ix2 p k) * W (ix2 k q) := rfl

theorem bias_apply (a : Nodes.Idx → EReal) (b : Row.Idx → EReal) (p : Fin 50000) (q : Fin 128) :
    bias a b (ix2 p q) = a (ix2 p q) + b (ix2 (0 : Fin 1) q) := rfl

theorem biasRelu_apply (a : Nodes.Idx → EReal) (b : Row.Idx → EReal) (p : Fin 50000) (q : Fin 128) :
    biasRelu a b (ix2 p q) = max (a (ix2 p q) + b (ix2 (0 : Fin 1) q)) (Ideal.ofBits .f32 0x00000000#32) := rfl

end Cert.Layer

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.StepsA.lean ====
/-
  The first three host stretches: the messages' end points and their weights, from the edge list.

  The buffer contents at the boundaries of @main's segments are a fold from the launch memory: `W k` is what every buffer
  holds after segment `k`. Each fact below reads ONE buffer at ONE boundary from the boundary before: a buffer a host
  stretch computes is the stretch's operations applied to what the stretch found; the output array of a launch is the
  layer's function of the launch's two input arrays; and a buffer the segment does not write is what it was.
-/
import proofs.«164031_j42417097015744_1_alg».proof.Proof.Gen.KernelIdeal.Frame
import proofs.«164031_j42417097015744_1_alg».proof.Proof.KernelChain
import proofs.«164031_j42417097015744_1_alg».proof.Proof.Layer
import proofs.«164031_j42417097015744_1_alg».proof.Proof.LibAsRow

import Idealize.ShloMosaic.Lib.StableHlo.Run

noncomputable section

namespace Cert.KernelIdeal.Steps

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 1: after the host stretch `hostOps0` -/

theorem at1_v3 (c : Dev nD) : W1 m ρ c (Proc.devRef .tc main_v3) = Chain.sources (W0 m ρ c (Proc.devRef .tc main_arg1)) := by
  dsimp only [W1, hostOps0]
  after_results_simp <;> rfl
theorem at1_v6 (c : Dev nD) : W1 m ρ c (Proc.devRef .tc main_v6) = Chain.targets (W0 m ρ c (Proc.devRef .tc main_arg1)) := by
  dsimp only [W1, hostOps0]
  after_results_simp <;> rfl
theorem at1_v12 (c : Dev nD) : W1 m ρ c (Proc.devRef .tc main_v12) = Chain.positive (Chain.degree (Chain.targets (W0 m ρ c (Proc.devRef .tc main_arg1)))) := by
  dsimp only [W1, hostOps0]
  after_results_simp <;> rfl
theorem at1_v13 (c : Dev nD) : W1 m ρ c (Proc.devRef .tc main_v13) = Host.rsqrt (F := Ideal) (φ := .f32) (Chain.degree (Chain.targets (W0 m ρ c (Proc.devRef .tc main_arg1)))) := by
  dsimp only [W1, hostOps0]
  after_results_simp <;> rfl
theorem at1_cst_2 (c : Dev nD) : W1 m ρ c (Proc.devRef .tc main_cst_2) = constant (F := Ideal) S_ .f32 0x00000000#32 := by
  dsimp only [W1, hostOps0]
  after_results_simp <;> rfl
theorem at1_arg0 (c : Dev nD) : W1 m ρ c (Proc.devRef .tc main_arg0) = W0 m ρ c (Proc.devRef .tc main_arg0) := by
  dsimp only [W1, hostOps0]
  after_results_simp
theorem at1_arg2 (c : Dev nD) : W1 m ρ c (Proc.devRef .tc main_arg2) = W0 m ρ c (Proc.devRef .tc main_arg2) := by
  dsimp only [W1, hostOps0]
  after_results_simp
theorem at1_arg3 (c : Dev nD) : W1 m ρ c (Proc.devRef .tc main_arg3) = W0 m ρ c (Proc.devRef .tc main_arg3) := by
  dsimp only [W1, hostOps0]
  after_results_simp
theorem at1_arg4 (c : Dev nD) : W1 m ρ c (Proc.devRef .tc main_arg4) = W0 m ρ c (Proc.devRef .tc main_arg4) := by
  dsimp only [W1, hostOps0]
  after_results_simp
theorem at1_arg5 (c : Dev nD) : W1 m ρ c (Proc.devRef .tc main_arg5) = W0 m ρ c (Proc.devRef .tc main_arg5) := by
  dsimp only [W1, hostOps0]
  after_results_simp
theorem at1_arg6 (c : Dev nD) : W1 m ρ c (Proc.devRef .tc main_arg6) = W0 m ρ c (Proc.devRef .tc main_arg6) := by
  dsimp only [W1, hostOps0]
  after_results_simp
theorem at1_arg7 (c : Dev nD) : W1 m ρ c (Proc.devRef .tc main_arg7) = W0 m ρ c (Proc.devRef .tc main_arg7) := by
  dsimp only [W1, hostOps0]
  after_results_simp
theorem at1_arg8 (c : Dev nD) : W1 m ρ c (Proc.devRef .tc main_arg8) = W0 m ρ c (Proc.devRef .tc main_arg8) := by
  dsimp only [W1, hostOps0]
  after_results_simp

/-! ## Boundary 2: after the host stretch `hostOps0_1` -/

theorem at2_v14 (c : Dev nD) : W2 m ρ c (Proc.devRef .tc main_v14) = Chain.orZero (W1 m ρ c (Proc.devRef .tc main_v12)) (W1 m ρ c (Proc.devRef .tc main_v13)) (W1 m ρ c (Proc.devRef .tc main_cst_2)) := by
  dsimp only [W2, hostOps0_1]
  generalize W1 m ρ c = V
  after_results_simp <;> rfl
theorem at2_v3 (c : Dev nD) : W2 m ρ c (Proc.devRef .tc main_v3) = W1 m ρ c (Proc.devRef .tc main_v3) := by
  dsimp only [W2, hostOps0_1]
  generalize W1 m ρ c = V
  after_results_simp
theorem at2_v6 (c : Dev nD) : W2 m ρ c (Proc.devRef .tc main_v6) = W1 m ρ c (Proc.devRef .tc main_v6) := by
  dsimp only [W2, hostOps0_1]
  generalize W1 m ρ c = V
  after_results_simp
theorem at2_arg0 (c : Dev nD) : W2 m ρ c (Proc.devRef .tc main_arg0) = W1 m ρ c (Proc.devRef .tc main_arg0) := by
  dsimp only [W2, hostOps0_1]
  generalize W1 m ρ c = V
  after_results_simp
theorem at2_arg2 (c : Dev nD) : W2 m ρ c (Proc.devRef .tc main_arg2) = W1 m ρ c (Proc.devRef .tc main_arg2) := by
  dsimp only [W2, hostOps0_1]
  generalize W1 m ρ c = V
  after_results_simp
theorem at2_arg3 (c : Dev nD) : W2 m ρ c (Proc.devRef .tc main_arg3) = W1 m ρ c (Proc.devRef .tc main_arg3) := by
  dsimp only [W2, hostOps0_1]
  generalize W1 m ρ c = V
  after_results_simp
theorem at2_arg4 (c : Dev nD) : W2 m ρ c (Proc.devRef .tc main_arg4) = W1 m ρ c (Proc.devRef .tc main_arg4) := by
  dsimp only [W2, hostOps0_1]
  generalize W1 m ρ c = V
  after_results_simp
theorem at2_arg5 (c : Dev nD) : W2 m ρ c (Proc.devRef .tc main_arg5) = W1 m ρ c (Proc.devRef .tc main_arg5) := by
  dsimp only [W2, hostOps0_1]
  generalize W1 m ρ c = V
  after_results_simp
theorem at2_arg6 (c : Dev nD) : W2 m ρ c (Proc.devRef .tc main_arg6) = W1 m ρ c (Proc.devRef .tc main_arg6) := by
  dsimp only [W2, hostOps0_1]
  generalize W1 m ρ c = V
  after_results_simp
theorem at2_arg7 (c : Dev nD) : W2 m ρ c (Proc.devRef .tc main_arg7) = W1 m ρ c (Proc.devRef .tc main_arg7) := by
  dsimp only [W2, hostOps0_1]
  generalize W1 m ρ c = V
  after_results_simp
theorem at2_arg8 (c : Dev nD) : W2 m ρ c (Proc.devRef .tc main_arg8) = W1 m ρ c (Proc.devRef .tc main_arg8) := by
  dsimp only [W2, hostOps0_1]
  generalize W1 m ρ c = V
  after_results_simp

/-! ## Boundary 3: after the host stretch `hostOps0_2` -/

theorem at3_v29 (c : Dev nD) : W3 m ρ c (Proc.devRef .tc main_v29) = Chain.edgeNorm (W2 m ρ c (Proc.devRef .tc main_v14)) (W2 m ρ c (Proc.devRef .tc main_v3)) (W2 m ρ c (Proc.devRef .tc main_v6)) := by
  dsimp only [W3, hostOps0_2]
  generalize W2 m ρ c = V
  after_results_simp <;> rfl
theorem at3_v3 (c : Dev nD) : W3 m ρ c (Proc.devRef .tc main_v3) = W2 m ρ c (Proc.devRef .tc main_v3) := by
  dsimp only [W3, hostOps0_2]
  generalize W2 m ρ c = V
  after_results_simp
theorem at3_v6 (c : Dev nD) : W3 m ρ c (Proc.devRef .tc main_v6) = W2 m ρ c (Proc.devRef .tc main_v6) := by
  dsimp only [W3, hostOps0_2]
  generalize W2 m ρ c = V
  after_results_simp
theorem at3_arg0 (c : Dev nD) : W3 m ρ c (Proc.devRef .tc main_arg0) = W2 m ρ c (Proc.devRef .tc main_arg0) := by
  dsimp only [W3, hostOps0_2]
  generalize W2 m ρ c = V
  after_results_simp
theorem at3_arg2 (c : Dev nD) : W3 m ρ c (Proc.devRef .tc main_arg2) = W2 m ρ c (Proc.devRef .tc main_arg2) := by
  dsimp only [W3, hostOps0_2]
  generalize W2 m ρ c = V
  after_results_simp
theorem at3_arg3 (c : Dev nD) : W3 m ρ c (Proc.devRef .tc main_arg3) = W2 m ρ c (Proc.devRef .tc main_arg3) := by
  dsimp only [W3, hostOps0_2]
  generalize W2 m ρ c = V
  after_results_simp
theorem at3_arg4 (c : Dev nD) : W3 m ρ c (Proc.devRef .tc main_arg4) = W2 m ρ c (Proc.devRef .tc main_arg4) := by
  dsimp only [W3, hostOps0_2]
  generalize W2 m ρ c = V
  after_results_simp
theorem at3_arg5 (c : Dev nD) : W3 m ρ c (Proc.devRef .tc main_arg5) = W2 m ρ c (Proc.devRef .tc main_arg5) := by
  dsimp only [W3, hostOps0_2]
  generalize W2 m ρ c = V
  after_results_simp
theorem at3_arg6 (c : Dev nD) : W3 m ρ c (Proc.devRef .tc main_arg6) = W2 m ρ c (Proc.devRef .tc main_arg6) := by
  dsimp only [W3, hostOps0_2]
  generalize W2 m ρ c = V
  after_results_simp
theorem at3_arg7 (c : Dev nD) : W3 m ρ c (Proc.devRef .tc main_arg7) = W2 m ρ c (Proc.devRef .tc main_arg7) := by
  dsimp only [W3, hostOps0_2]
  generalize W2 m ρ c = V
  after_results_simp
theorem at3_arg8 (c : Dev nD) : W3 m ρ c (Proc.devRef .tc main_arg8) = W2 m ρ c (Proc.devRef .tc main_arg8) := by
  dsimp only [W3, hostOps0_2]
  generalize W2 m ρ c = V
  after_results_simp

end Cert.KernelIdeal.Steps

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Body.lean ====
/-
  The kernel bodies at an index, on the extended reals.

  A body loads its two whole blocks, computes one value and stores it. That value, read at `(p, q)`:

    the product bodies (layers 1, 2, 3):  Σ k, x (p, k) · w (k, q)
      — both operands are narrowed to bf16 first, which changes nothing on the extended reals, and the product is
        accumulated into the zero splat, so what is left is the plain row-by-column sum;
    the bias bodies of layers 1 and 2:    max (x (p, q) + b (0, q)) 0
    the bias body of layer 3:             x (p, q) + b (0, q)
      — the bias block has one row, which the body spreads over the 5000 rows of the node block.

  The casts of a block to its own shape that the bodies print are the identity.
-/
import proofs.«164031_j42417097015744_1_alg».proof.Proof.Gen.KernelIdeal.Skeleton
import proofs.«164031_j42417097015744_1_alg».proof.Proof.LibMatDot
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-! ## The product bodies -/

/-- A block of 5000 nodes times the weights, the operands narrowed to bf16 and the accumulator zero: the plain sum. -/
theorem product_apply (x : Vec Ideal S5000x128 .f32) (w : Vec Ideal S128x128 .f32) (p : Fin 5000) (q : Fin 128) :
    matmul (F := Ideal) dot_S5000x128_S128x128_S5000x128_1_0_0_1_n_n none (truncf .bf16 x bitsLt_bf16_f32)
        (truncf .bf16 w bitsLt_bf16_f32) (constant S5000x128 .f32 0x00000000#32) (ix2 p q)
      = ∑ k : Fin 128, x (ix2 p k) * w (ix2 k q) :=
  Cert.Lib.matmul_plain_zero_apply (a := 5000) (K := 128) (b := 128) dot_S5000x128_S128x128_S5000x128_1_0_0_1_n_n.wf none
    (truncf .bf16 x bitsLt_bf16_f32) (truncf .bf16 w bitsLt_bf16_f32) p q

theorem product0_apply (x : Vec Ideal S5000x128 .f32) (w : Vec Ideal S128x128 .f32) (p : Fin 5000) (q : Fin 128) :
    k0_pay1 (F := Ideal) x w (ix2 p q) = ∑ k : Fin 128, x (ix2 p k) * w (ix2 k q) :=
  product_apply x w p q

theorem product2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  have e : k2_pay1 (F := Ideal) x w = matmul (F := Ideal) dot_S5000x128_S128x128_S5000x128_1_0_0_1_n_n none
      (truncf .bf16 (shapeCast S5000x128 x shapeCasts_S5000x128_S5000x128) bitsLt_bf16_f32)
      (truncf .bf16 w bitsLt_bf16_f32) (constant S5000x128 .f32 0x00000000#32) := rfl
  rw [e, shapeCast_self]
  exact product_apply x w p q

theorem product4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  have e : k4_pay1 (F := Ideal) x w = matmul (F := Ideal) dot_S5000x128_S128x128_S5000x128_1_0_0_1_n_n none
      (truncf .bf16 (shapeCast S5000x128 x shapeCasts_S5000x128_S5000x128) bitsLt_bf16_f32)
      (truncf .bf16 w bitsLt_bf16_f32) (constant S5000x128 .f32 0x00000000#32) := rfl
  rw [e, shapeCast_self]
  exact product_apply x w p q

/-! ## The bias bodies -/

/-- The bias row spread over the block and added. -/
theorem spreadAdd_apply (x : Vec Ideal S5000x128 .f32) (b : Vec Ideal S1x128 .f32) (p : Fin 5000) (q : Fin 128) :
    addf (F := Ideal) (φ := .f32) (shapeCast S5000x128 x shapeCasts_S5000x128_S5000x128)
        (broadcastTo S5000x128 (shapeCast S1x128 (shapeCast S1x128 b shapeCasts_S1x128_S1x128) shapeCasts_S1x128_S1x128)
          broadcasts_S1x128_S5000x128) (ix2 p q)
      = x (ix2 p q) + b (ix2 (0 : Fin 1) q) := by
  rw [shapeCast_self, shapeCast_self, shapeCast_self, addf_apply, broadcastTo_1b_ab_apply]

theorem biasRelu_apply (x : Vec Ideal S5000x128 .f32) (b : Vec Ideal S1x128 .f32) (p : Fin 5000) (q : Fin 128) :
    maximumf (F := Ideal) (φ := .f32) (addf (F := Ideal) (φ := .f32) (shapeCast S5000x128 x shapeCasts_S5000x128_S5000x128)
        (broadcastTo S5000x128 (shapeCast S1x128 (shapeCast S1x128 b shapeCasts_S1x128_S1x128) shapeCasts_S1x128_S1x128)
          broadcasts_S1x128_S5000x128)) (broadcast S5000x128 (Scalar.ofBits (F := Ideal) .f32 0x00000000#32)) (ix2 p q)
      = max (x (ix2 p q) + b (ix2 (0 : Fin 1) q)) (Ideal.ofBits .f32 0x00000000#32) := by
  rw [maximumf_apply, spreadAdd_apply, broadcast_apply]
  rfl

theorem biasRelu1_apply (x : Vec Ideal S5000x128 .f32) (b : Vec Ideal S1x128 .f32) (p : Fin 5000) (q : Fin 128) :
    k1_pay1 (F := Ideal) x b (ix2 p q) = max (x (ix2 p q) + b (ix2 (0 : Fin 1) q)) (Ideal.ofBits .f32 0x00000000#32) :=
  biasRelu_apply x b p q

theorem biasRelu3_apply (x : Vec Ideal S5000x128 .f32) (b : Vec Ideal S1x128 .f32) (p : Fin 5000) (q : Fin 128) :
    k3_pay1 (F := Ideal) x b (ix2 p q) = max (x (ix2 p q) + b (ix2 (0 : Fin 1) q)) (Ideal.ofBits .f32 0x00000000#32) :=
  biasRelu_apply x b p q

theorem bias5_apply (x : Vec Ideal S5000x128 .f32) (b : Vec Ideal S1x128 .f32) (p : Fin 5000) (q : Fin 128) :
    k5_pay1 (F := Ideal) x b (ix2 p q) = x (ix2 p q) + b (ix2 (0 : Fin 1) q) :=
  spreadAdd_apply x b p q

end Cert.KernelIdeal.Body

end
-- ==== Proof.Launch0.lean ====
/-
  Launch 0 of @main (a product): the array it leaves.

  The grid has ten points; point `t` reads rows `5000·t … 5000·t + 4999` of the node array and the whole weight matrix,
  computes the body's value on that block and writes it back to the same rows of the output array. The ten blocks tile
  the 50000 rows, so the output array ends as ONE function of the two input arrays as the launch finds them:
  `Layer.linear`, the row-by-column sums.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch0

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the weight matrix stays put, and no block index leaves its range. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's row `(j 0)` is row `rowOf i` of `A` and the weight block is `B`, the body's value at `j`
    is the product's entry `i`. -/
theorem point (x : Vec Ideal S5000x128 .f32) (w : Vec Ideal S128x128 .f32) (A : Nodes.Idx → EReal) (B : Weights.Idx → EReal)
    (j : S5000x128.Idx) (i : Nodes.Idx)
    (hx : ∀ k : Fin 128, x (ix2 (⟨(j 0).val, idx2_lt0 j⟩ : Fin 5000) k) = A (ix2 (rowOf i) k))
    (hw : ∀ k : Fin 128, w (ix2 k (⟨(j 1).val, idx2_lt1 j⟩ : Fin 128)) = B (ix2 k (colOf i))) :
    k0_pay1 (F := Ideal) x w j = linear A B i := by
  refine (congrArg (k0_pay1 (F := Ideal) x w) (block_index j)).trans ((Body.product0_apply x w _ _).trans ?_)
  exact Finset.sum_congr rfl fun k _ => by rw [hx k, hw k]

/-- WHAT POINT `t` WRITES BACK is block `t` of the product of the two arrays as the launch finds them. -/
theorem flushed_eq (c : Dev nD) (t : Fin cfg0.N) :
    (dat0 V c).flushed 2 t = ((cfg0.win 2).blk t).view.read (Elt Ideal) (linear (V c main_arg0) (V c main_arg3)) := by
  show (cfg0.win 2).cut (grid0.coords t) ((dat0 V c).after 2 t) = _
  rw [after0_2]
  unfold out0_2
  rw [View.canon_unit_zero zero_offset]
  simp only [View.ld_unit_zero (S := S5000x128) zero_offset, View.ld_unit_zero (S := S128x128) zero_offset]
  obtain ⟨e0, e1, e2, e3, e4, e5⟩ := index_maps t
  funext j
  show k0_pay1 (F := Ideal) (iblk0 V c 0 t) (iblk0 V c 1 t) j
    = linear (V c main_arg0) (V c main_arg3) (((cfg0.win 2).blk t).view.emb j)
  refine point (iblk0 V c 0 t) (iblk0 V c 1 t) (V c main_arg0) (V c main_arg3) j _ (fun k => ?_) (fun k => ?_)
  · show V c main_arg0 (((cfg0.win 0).blk t).view.emb (ix2 (⟨(j 0).val, idx2_lt0 j⟩ : Fin 5000) k)) = V c main_arg0 (ix2 _ k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg3 (((cfg0.win 1).blk t).view.emb (ix2 k (⟨(j 1).val, idx2_lt1 j⟩ : Fin 128))) = V c main_arg3 (ix2 k _)
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- THE COVER: row `r` is in the block of the point with block index `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE ARRAY the launch leaves. -/
theorem array_eq (c : Dev nD) : (dat0 V c).arrAt 2 cfg0.N = linear (V c main_arg0) (V c main_arg3) :=
  (dat0 V c).arrAt_eq_of_cover 2 _ (fun t _ => flushed_eq V c t) cover

end Cert.KernelIdeal.Launch0

end
-- ==== Proof.Launch1.lean ====
/-
  Launch 1 of @main (a bias and positive part): the array it leaves.

  The grid has ten points; point `t` reads rows `5000·t … 5000·t + 4999` of the node array and the one bias row,
  computes the body's value on that block and writes it back to the same rows of the output array. The ten blocks tile
  the 50000 rows, so the output array ends as ONE function of the two input arrays as the launch finds them:
  `Layer.biasRelu`, the bias row added to every node and the positive part taken.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch1

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the bias row stays put, and no block index leaves its range. -/
theorem index_maps : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's entry `j` is entry `i` of `A` and the bias block's entry of the same column is `B`'s, the
    body's value at `j` is the layer's entry `i`. -/
theorem point (x : Vec Ideal S5000x128 .f32) (b : Vec Ideal S1x128 .f32) (A : Nodes.Idx → EReal) (B : Row.Idx → EReal)
    (j : S5000x128.Idx) (i : Nodes.Idx)
    (hx : x (ix2 (⟨(j 0).val, idx2_lt0 j⟩ : Fin 5000) (⟨(j 1).val, idx2_lt1 j⟩ : Fin 128)) = A i)
    (hb : b (ix2 (0 : Fin 1) (⟨(j 1).val, idx2_lt1 j⟩ : Fin 128)) = B (ix2 (0 : Fin 1) (colOf i))) :
    k1_pay1 (F := Ideal) x b j = biasRelu A B i := by
  refine (congrArg (k1_pay1 (F := Ideal) x b) (block_index j)).trans ((Body.biasRelu1_apply x b _ _).trans ?_)
  rw [hx, hb]
  rfl

/-- WHAT POINT `t` WRITES BACK is block `t` of the layer's function of the two arrays as the launch finds them. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zero_offset]
  simp only [View.ld_unit_zero (S := S5000x128) zero_offset, View.ld_unit_zero (S := S1x128) zero_offset]
  obtain ⟨e0, e1, e2, e3, e4, e5⟩ := index_maps t
  funext j
  show k1_pay1 (F := Ideal) (iblk1 V c 0 t) (iblk1 V c 1 t) j
    = biasRelu (V c main_v43) (V c main_v44) (((cfg1.win 2).blk t).view.emb j)
  refine point (iblk1 V c 0 t) (iblk1 V c 1 t) (V c main_v43) (V c main_v44) j _ ?_ ?_
  · show V c main_v43 (((cfg1.win 0).blk t).view.emb (ix2 (⟨(j 0).val, idx2_lt0 j⟩ : Fin 5000) (⟨(j 1).val, idx2_lt1 j⟩ : Fin 128)))
      = V c main_v43 (((cfg1.win 2).blk t).view.emb j)
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v44 (((cfg1.win 1).blk t).view.emb (ix2 (0 : Fin 1) (⟨(j 1).val, idx2_lt1 j⟩ : Fin 128)))
      = V c main_v44 (ix2 (0 : Fin 1) _)
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- THE COVER: row `r` is in the block of the point with block index `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- THE ARRAY the launch leaves. -/
theorem array_eq (c : Dev nD) : (dat1 V c).arrAt 2 cfg1.N = biasRelu (V c main_v43) (V c main_v44) :=
  (dat1 V c).arrAt_eq_of_cover 2 _ (fun t _ => flushed_eq V c t) cover

end Cert.KernelIdeal.Launch1

end
-- ==== Proof.StepsB.lean ====
/-
  The first layer: launch 0 (the product), the aggregation, launch 1 (bias and positive part).

  The buffer contents at the boundaries of @main's segments are a fold from the launch memory: `W k` is what every buffer
  holds after segment `k`. Each fact below reads ONE buffer at ONE boundary from the boundary before: a buffer a host
  stretch computes is the stretch's operations applied to what the stretch found; the output array of a launch is the
  layer's function of the launch's two input arrays; and a buffer the segment does not write is what it was.
-/
import proofs.«164031_j42417097015744_1_alg».proof.Proof.Gen.KernelIdeal.Frame
import proofs.«164031_j42417097015744_1_alg».proof.Proof.KernelChain
import proofs.«164031_j42417097015744_1_alg».proof.Proof.Layer
import proofs.«164031_j42417097015744_1_alg».proof.Proof.LibAsRow
import proofs.«164031_j42417097015744_1_alg».proof.Proof.Launch0
import proofs.«164031_j42417097015744_1_alg».proof.Proof.Launch1
import Idealize.ShloMosaic.Lib.StableHlo.Run

noncomputable section

namespace Cert.KernelIdeal.Steps

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 4: after launch 0 -/

theorem at4_v30 (c : Dev nD) : W4 m ρ c (Proc.devRef .tc main_v30) = Cert.Layer.linear (W3 m ρ c (Proc.devRef .tc main_arg0)) (W3 m ρ c (Proc.devRef .tc main_arg3)) :=
  (W4_arr m ρ c 2).trans (Launch0.array_eq (V3 m ρ) c)
theorem at4_v29 (c : Dev nD) : W4 m ρ c (Proc.devRef .tc main_v29) = W3 m ρ c (Proc.devRef .tc main_v29) := W4_of_ne m ρ c main_v29 (by decide)
theorem at4_v3 (c : Dev nD) : W4 m ρ c (Proc.devRef .tc main_v3) = W3 m ρ c (Proc.devRef .tc main_v3) := W4_of_ne m ρ c main_v3 (by decide)
theorem at4_v6 (c : Dev nD) : W4 m ρ c (Proc.devRef .tc main_v6) = W3 m ρ c (Proc.devRef .tc main_v6) := W4_of_ne m ρ c main_v6 (by decide)
theorem at4_arg2 (c : Dev nD) : W4 m ρ c (Proc.devRef .tc main_arg2) = W3 m ρ c (Proc.devRef .tc main_arg2) := W4_of_ne m ρ c main_arg2 (by decide)
theorem at4_arg4 (c : Dev nD) : W4 m ρ c (Proc.devRef .tc main_arg4) = W3 m ρ c (Proc.devRef .tc main_arg4) := W4_of_ne m ρ c main_arg4 (by decide)
theorem at4_arg5 (c : Dev nD) : W4 m ρ c (Proc.devRef .tc main_arg5) = W3 m ρ c (Proc.devRef .tc main_arg5) := W4_of_ne m ρ c main_arg5 (by decide)
theorem at4_arg6 (c : Dev nD) : W4 m ρ c (Proc.devRef .tc main_arg6) = W3 m ρ c (Proc.devRef .tc main_arg6) := W4_of_ne m ρ c main_arg6 (by decide)
theorem at4_arg7 (c : Dev nD) : W4 m ρ c (Proc.devRef .tc main_arg7) = W3 m ρ c (Proc.devRef .tc main_arg7) := W4_of_ne m ρ c main_arg7 (by decide)
theorem at4_arg8 (c : Dev nD) : W4 m ρ c (Proc.devRef .tc main_arg8) = W3 m ρ c (Proc.devRef .tc main_arg8) := W4_of_ne m ρ c main_arg8 (by decide)

/-! ## Boundary 5: after the host stretch `hostOps1` -/

theorem at5_v43 (c : Dev nD) : W5 m ρ c (Proc.devRef .tc main_v43) = Chain.aggregate (W4 m ρ c (Proc.devRef .tc main_v29)) (W4 m ρ c (Proc.devRef .tc main_v3)) (W4 m ρ c (Proc.devRef .tc main_v6)) (W4 m ρ c (Proc.devRef .tc main_v30)) := by
  dsimp only [W5, hostOps1]
  generalize W4 m ρ c = V
  after_results_simp <;> rfl
theorem at5_v44 (c : Dev nD) : W5 m ρ c (Proc.devRef .tc main_v44) = Cert.Lib.asRow (W4 m ρ c (Proc.devRef .tc main_arg4)) := by
  dsimp only [W5, hostOps1]
  generalize W4 m ρ c = V
  after_results_simp
  exact Cert.Lib.shapeCast_eq_asRow (n := 128) (V (Proc.devRef .tc main_arg4)) shapeCasts_S128_S1x128
theorem at5_v29 (c : Dev nD) : W5 m ρ c (Proc.devRef .tc main_v29) = W4 m ρ c (Proc.devRef .tc main_v29) := by
  dsimp only [W5, hostOps1]
  generalize W4 m ρ c = V
  after_results_simp
theorem at5_v3 (c : Dev nD) : W5 m ρ c (Proc.devRef .tc main_v3) = W4 m ρ c (Proc.devRef .tc main_v3) := by
  dsimp only [W5, hostOps1]
  generalize W4 m ρ c = V
  after_results_simp
theorem at5_v6 (c : Dev nD) : W5 m ρ c (Proc.devRef .tc main_v6) = W4 m ρ c (Proc.devRef .tc main_v6) := by
  dsimp only [W5, hostOps1]
  generalize W4 m ρ c = V
  after_results_simp
theorem at5_arg2 (c : Dev nD) : W5 m ρ c (Proc.devRef .tc main_arg2) = W4 m ρ c (Proc.devRef .tc main_arg2) := by
  dsimp only [W5, hostOps1]
  generalize W4 m ρ c = V
  after_results_simp
theorem at5_arg5 (c : Dev nD) : W5 m ρ c (Proc.devRef .tc main_arg5) = W4 m ρ c (Proc.devRef .tc main_arg5) := by
  dsimp only [W5, hostOps1]
  generalize W4 m ρ c = V
  after_results_simp
theorem at5_arg6 (c : Dev nD) : W5 m ρ c (Proc.devRef .tc main_arg6) = W4 m ρ c (Proc.devRef .tc main_arg6) := by
  dsimp only [W5, hostOps1]
  generalize W4 m ρ c = V
  after_results_simp
theorem at5_arg7 (c : Dev nD) : W5 m ρ c (Proc.devRef .tc main_arg7) = W4 m ρ c (Proc.devRef .tc main_arg7) := by
  dsimp only [W5, hostOps1]
  generalize W4 m ρ c = V
  after_results_simp
theorem at5_arg8 (c : Dev nD) : W5 m ρ c (Proc.devRef .tc main_arg8) = W4 m ρ c (Proc.devRef .tc main_arg8) := by
  dsimp only [W5, hostOps1]
  generalize W4 m ρ c = V
  after_results_simp

/-! ## Boundary 6: after launch 1 -/

theorem at6_v45 (c : Dev nD) : W6 m ρ c (Proc.devRef .tc main_v45) = Cert.Layer.biasRelu (W5 m ρ c (Proc.devRef .tc main_v43)) (W5 m ρ c (Proc.devRef .tc main_v44)) :=
  (W6_arr m ρ c 2).trans (Launch1.array_eq (V5 m ρ) c)
theorem at6_v29 (c : Dev nD) : W6 m ρ c (Proc.devRef .tc main_v29) = W5 m ρ c (Proc.devRef .tc main_v29) := W6_of_ne m ρ c main_v29 (by decide)
theorem at6_v3 (c : Dev nD) : W6 m ρ c (Proc.devRef .tc main_v3) = W5 m ρ c (Proc.devRef .tc main_v3) := W6_of_ne m ρ c main_v3 (by decide)
theorem at6_v6 (c : Dev nD) : W6 m ρ c (Proc.devRef .tc main_v6) = W5 m ρ c (Proc.devRef .tc main_v6) := W6_of_ne m ρ c main_v6 (by decide)
theorem at6_arg2 (c : Dev nD) : W6 m ρ c (Proc.devRef .tc main_arg2) = W5 m ρ c (Proc.devRef .tc main_arg2) := W6_of_ne m ρ c main_arg2 (by decide)
theorem at6_arg5 (c : Dev nD) : W6 m ρ c (Proc.devRef .tc main_arg5) = W5 m ρ c (Proc.devRef .tc main_arg5) := W6_of_ne m ρ c main_arg5 (by decide)
theorem at6_arg6 (c : Dev nD) : W6 m ρ c (Proc.devRef .tc main_arg6) = W5 m ρ c (Proc.devRef .tc main_arg6) := W6_of_ne m ρ c main_arg6 (by decide)
theorem at6_arg7 (c : Dev nD) : W6 m ρ c (Proc.devRef .tc main_arg7) = W5 m ρ c (Proc.devRef .tc main_arg7) := W6_of_ne m ρ c main_arg7 (by decide)
theorem at6_arg8 (c : Dev nD) : W6 m ρ c (Proc.devRef .tc main_arg8) = W5 m ρ c (Proc.devRef .tc main_arg8) := W6_of_ne m ρ c main_arg8 (by decide)

end Cert.KernelIdeal.Steps

end
-- ==== Proof.Launch2.lean ====
/-
  Launch 2 of @main (a product): the array it leaves.

  The grid has ten points; point `t` reads rows `5000·t … 5000·t + 4999` of the node array and the whole weight matrix,
  computes the body's value on that block and writes it back to the same rows of the output array. The ten blocks tile
  the 50000 rows, so the output array ends as ONE function of the two input arrays as the launch finds them:
  `Layer.linear`, the row-by-column sums.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch2

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the weight matrix stays put, and no block index leaves its range. -/
theorem index_maps : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's row `(j 0)` is row `rowOf i` of `A` and the weight block is `B`, the body's value at `j`
    is the product's entry `i`. -/
theorem point (x : Vec Ideal S5000x128 .f32) (w : Vec Ideal S128x128 .f32) (A : Nodes.Idx → EReal) (B : Weights.Idx → EReal)
    (j : S5000x128.Idx) (i : Nodes.Idx)
    (hx : ∀ k : Fin 128, x (ix2 (⟨(j 0).val, idx2_lt0 j⟩ : Fin 5000) k) = A (ix2 (rowOf i) k))
    (hw : ∀ k : Fin 128, w (ix2 k (⟨(j 1).val, idx2_lt1 j⟩ : Fin 128)) = B (ix2 k (colOf i))) :
    k2_pay1 (F := Ideal) x w j = linear A B i := by
  refine (congrArg (k2_pay1 (F := Ideal) x w) (block_index j)).trans ((Body.product2_apply x w _ _).trans ?_)
  exact Finset.sum_congr rfl fun k _ => by rw [hx k, hw k]

/-- WHAT POINT `t` WRITES BACK is block `t` of the product of the two arrays as the launch finds them. -/
theorem flushed_eq (c : Dev nD) (t : Fin cfg2.N) :
    (dat2 V c).flushed 2 t = ((cfg2.win 2).blk t).view.read (Elt Ideal) (linear (V c main_v45) (V c main_arg5)) := by
  show (cfg2.win 2).cut (grid2.coords t) ((dat2 V c).after 2 t) = _
  rw [after2_2]
  unfold out2_2
  rw [View.canon_unit_zero zero_offset]
  simp only [View.ld_unit_zero (S := S5000x128) zero_offset, View.ld_unit_zero (S := S128x128) zero_offset]
  obtain ⟨e0, e1, e2, e3, e4, e5⟩ := index_maps t
  funext j
  show k2_pay1 (F := Ideal) (iblk2 V c 0 t) (iblk2 V c 1 t) j
    = linear (V c main_v45) (V c main_arg5) (((cfg2.win 2).blk t).view.emb j)
  refine point (iblk2 V c 0 t) (iblk2 V c 1 t) (V c main_v45) (V c main_arg5) j _ (fun k => ?_) (fun k => ?_)
  · show V c main_v45 (((cfg2.win 0).blk t).view.emb (ix2 (⟨(j 0).val, idx2_lt0 j⟩ : Fin 5000) k)) = V c main_v45 (ix2 _ k)
    refine congrArg (V c main_v45) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg5 (((cfg2.win 1).blk t).view.emb (ix2 k (⟨(j 1).val, idx2_lt1 j⟩ : Fin 128))) = V c main_arg5 (ix2 k _)
    refine congrArg (V c main_arg5) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- THE COVER: row `r` is in the block of the point with block index `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- THE ARRAY the launch leaves. -/
theorem array_eq (c : Dev nD) : (dat2 V c).arrAt 2 cfg2.N = linear (V c main_v45) (V c main_arg5) :=
  (dat2 V c).arrAt_eq_of_cover 2 _ (fun t _ => flushed_eq V c t) cover

end Cert.KernelIdeal.Launch2

end
-- ==== Proof.Launch3.lean ====
/-
  Launch 3 of @main (a bias and positive part): the array it leaves.

  The grid has ten points; point `t` reads rows `5000·t … 5000·t + 4999` of the node array and the one bias row,
  computes the body's value on that block and writes it back to the same rows of the output array. The ten blocks tile
  the 50000 rows, so the output array ends as ONE function of the two input arrays as the launch finds them:
  `Layer.biasRelu`, the bias row added to every node and the positive part taken.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch3

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the bias row stays put, and no block index leaves its range. -/
theorem index_maps : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows is some point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's entry `j` is entry `i` of `A` and the bias block's entry of the same column is `B`'s, the
    body's value at `j` is the layer's entry `i`. -/
theorem point (x : Vec Ideal S5000x128 .f32) (b : Vec Ideal S1x128 .f32) (A : Nodes.Idx → EReal) (B : Row.Idx → EReal)
    (j : S5000x128.Idx) (i : Nodes.Idx)
    (hx : x (ix2 (⟨(j 0).val, idx2_lt0 j⟩ : Fin 5000) (⟨(j 1).val, idx2_lt1 j⟩ : Fin 128)) = A i)
    (hb : b (ix2 (0 : Fin 1) (⟨(j 1).val, idx2_lt1 j⟩ : Fin 128)) = B (ix2 (0 : Fin 1) (colOf i))) :
    k3_pay1 (F := Ideal) x b j = biasRelu A B i := by
  refine (congrArg (k3_pay1 (F := Ideal) x b) (block_index j)).trans ((Body.biasRelu3_apply x b _ _).trans ?_)
  rw [hx, hb]
  rfl

/-- WHAT POINT `t` WRITES BACK is block `t` of the layer's function of the two arrays as the launch finds them. -/
theorem flushed_eq (c : Dev nD) (t : Fin cfg3.N) :
    (dat3 V c).flushed 2 t = ((cfg3.win 2).blk t).view.read (Elt Ideal) (biasRelu (V c main_v59) (V c main_v60)) := by
  show (cfg3.win 2).cut (grid3.coords t) ((dat3 V c).after 2 t) = _
  rw [after3_2]
  unfold out3_2
  rw [View.canon_unit_zero zero_offset]
  simp only [View.ld_unit_zero (S := S5000x128) zero_offset, View.ld_unit_zero (S := S1x128) zero_offset]
  obtain ⟨e0, e1, e2, e3, e4, e5⟩ := index_maps t
  funext j
  show k3_pay1 (F := Ideal) (iblk3 V c 0 t) (iblk3 V c 1 t) j
    = biasRelu (V c main_v59) (V c main_v60) (((cfg3.win 2).blk t).view.emb j)
  refine point (iblk3 V c 0 t) (iblk3 V c 1 t) (V c main_v59) (V c main_v60) j _ ?_ ?_
  · show V c main_v59 (((cfg3.win 0).blk t).view.emb (ix2 (⟨(j 0).val, idx2_lt0 j⟩ : Fin 5000) (⟨(j 1).val, idx2_lt1 j⟩ : Fin 128)))
      = V c main_v59 (((cfg3.win 2).blk t).view.emb j)
    refine congrArg (V c main_v59) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  · show V c main_v60 (((cfg3.win 1).blk t).view.emb (ix2 (0 : Fin 1) (⟨(j 1).val, idx2_lt1 j⟩ : Fin 128)))
      = V c main_v60 (ix2 (0 : Fin 1) _)
    refine congrArg (V c main_v60) (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- THE COVER: row `r` is in the block of the point with block index `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- THE ARRAY the launch leaves. -/
theorem array_eq (c : Dev nD) : (dat3 V c).arrAt 2 cfg3.N = biasRelu (V c main_v59) (V c main_v60) :=
  (dat3 V c).arrAt_eq_of_cover 2 _ (fun t _ => flushed_eq V c t) cover

end Cert.KernelIdeal.Launch3

end
-- ==== Proof.StepsC.lean ====
/-
  The second layer: launch 2 (the product), the aggregation, launch 3 (bias and positive part).

  The buffer contents at the boundaries of @main's segments are a fold from the launch memory: `W k` is what every buffer
  holds after segment `k`. Each fact below reads ONE buffer at ONE boundary from the boundary before: a buffer a host
  stretch computes is the stretch's operations applied to what the stretch found; the output array of a launch is the
  layer's function of the launch's two input arrays; and a buffer the segment does not write is what it was.
-/
import proofs.«164031_j42417097015744_1_alg».proof.Proof.Gen.KernelIdeal.Frame
import proofs.«164031_j42417097015744_1_alg».proof.Proof.KernelChain
import proofs.«164031_j42417097015744_1_alg».proof.Proof.Layer
import proofs.«164031_j42417097015744_1_alg».proof.Proof.LibAsRow
import proofs.«164031_j42417097015744_1_alg».proof.Proof.Launch2
import proofs.«164031_j42417097015744_1_alg».proof.Proof.Launch3
import Idealize.ShloMosaic.Lib.StableHlo.Run

noncomputable section

namespace Cert.KernelIdeal.Steps

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 7: after launch 2 -/

theorem at7_v46 (c : Dev nD) : W7 m ρ c (Proc.devRef .tc main_v46) = Cert.Layer.linear (W6 m ρ c (Proc.devRef .tc main_v45)) (W6 m ρ c (Proc.devRef .tc main_arg5)) :=
  (W7_arr m ρ c 2).trans (Launch2.array_eq (V6 m ρ) c)
theorem at7_v29 (c : Dev nD) : W7 m ρ c (Proc.devRef .tc main_v29) = W6 m ρ c (Proc.devRef .tc main_v29) := W7_of_ne m ρ c main_v29 (by decide)
theorem at7_v3 (c : Dev nD) : W7 m ρ c (Proc.devRef .tc main_v3) = W6 m ρ c (Proc.devRef .tc main_v3) := W7_of_ne m ρ c main_v3 (by decide)
theorem at7_v6 (c : Dev nD) : W7 m ρ c (Proc.devRef .tc main_v6) = W6 m ρ c (Proc.devRef .tc main_v6) := W7_of_ne m ρ c main_v6 (by decide)
theorem at7_arg2 (c : Dev nD) : W7 m ρ c (Proc.devRef .tc main_arg2) = W6 m ρ c (Proc.devRef .tc main_arg2) := W7_of_ne m ρ c main_arg2 (by decide)
theorem at7_arg6 (c : Dev nD) : W7 m ρ c (Proc.devRef .tc main_arg6) = W6 m ρ c (Proc.devRef .tc main_arg6) := W7_of_ne m ρ c main_arg6 (by decide)
theorem at7_arg7 (c : Dev nD) : W7 m ρ c (Proc.devRef .tc main_arg7) = W6 m ρ c (Proc.devRef .tc main_arg7) := W7_of_ne m ρ c main_arg7 (by decide)
theorem at7_arg8 (c : Dev nD) : W7 m ρ c (Proc.devRef .tc main_arg8) = W6 m ρ c (Proc.devRef .tc main_arg8) := W7_of_ne m ρ c main_arg8 (by decide)

/-! ## Boundary 8: after the host stretch `hostOps3` -/

theorem at8_v59 (c : Dev nD) : W8 m ρ c (Proc.devRef .tc main_v59) = Chain.aggregate (W7 m ρ c (Proc.devRef .tc main_v29)) (W7 m ρ c (Proc.devRef .tc main_v3)) (W7 m ρ c (Proc.devRef .tc main_v6)) (W7 m ρ c (Proc.devRef .tc main_v46)) := by
  dsimp only [W8, hostOps3]
  generalize W7 m ρ c = V
  after_results_simp <;> rfl
theorem at8_v60 (c : Dev nD) : W8 m ρ c (Proc.devRef .tc main_v60) = Cert.Lib.asRow (W7 m ρ c (Proc.devRef .tc main_arg6)) := by
  dsimp only [W8, hostOps3]
  generalize W7 m ρ c = V
  after_results_simp
  exact Cert.Lib.shapeCast_eq_asRow (n := 128) (V (Proc.devRef .tc main_arg6)) shapeCasts_S128_S1x128
theorem at8_v29 (c : Dev nD) : W8 m ρ c (Proc.devRef .tc main_v29) = W7 m ρ c (Proc.devRef .tc main_v29) := by
  dsimp only [W8, hostOps3]
  generalize W7 m ρ c = V
  after_results_simp
theorem at8_v3 (c : Dev nD) : W8 m ρ c (Proc.devRef .tc main_v3) = W7 m ρ c (Proc.devRef .tc main_v3) := by
  dsimp only [W8, hostOps3]
  generalize W7 m ρ c = V
  after_results_simp
theorem at8_v6 (c : Dev nD) : W8 m ρ c (Proc.devRef .tc main_v6) = W7 m ρ c (Proc.devRef .tc main_v6) := by
  dsimp only [W8, hostOps3]
  generalize W7 m ρ c = V
  after_results_simp
theorem at8_arg2 (c : Dev nD) : W8 m ρ c (Proc.devRef .tc main_arg2) = W7 m ρ c (Proc.devRef .tc main_arg2) := by
  dsimp only [W8, hostOps3]
  generalize W7 m ρ c = V
  after_results_simp
theorem at8_arg7 (c : Dev nD) : W8 m ρ c (Proc.devRef .tc main_arg7) = W7 m ρ c (Proc.devRef .tc main_arg7) := by
  dsimp only [W8, hostOps3]
  generalize W7 m ρ c = V
  after_results_simp
theorem at8_arg8 (c : Dev nD) : W8 m ρ c (Proc.devRef .tc main_arg8) = W7 m ρ c (Proc.devRef .tc main_arg8) := by
  dsimp only [W8, hostOps3]
  generalize W7 m ρ c = V
  after_results_simp

/-! ## Boundary 9: after launch 3 -/

theorem at9_v61 (c : Dev nD) : W9 m ρ c (Proc.devRef .tc main_v61) = Cert.Layer.biasRelu (W8 m ρ c (Proc.devRef .tc main_v59)) (W8 m ρ c (Proc.devRef .tc main_v60)) :=
  (W9_arr m ρ c 2).trans (Launch3.array_eq (V8 m ρ) c)
theorem at9_v29 (c : Dev nD) : W9 m ρ c (Proc.devRef .tc main_v29) = W8 m ρ c (Proc.devRef .tc main_v29) := W9_of_ne m ρ c main_v29 (by decide)
theorem at9_v3 (c : Dev nD) : W9 m ρ c (Proc.devRef .tc main_v3) = W8 m ρ c (Proc.devRef .tc main_v3) := W9_of_ne m ρ c main_v3 (by decide)
theorem at9_v6 (c : Dev nD) : W9 m ρ c (Proc.devRef .tc main_v6) = W8 m ρ c (Proc.devRef .tc main_v6) := W9_of_ne m ρ c main_v6 (by decide)
theorem at9_arg2 (c : Dev nD) : W9 m ρ c (Proc.devRef .tc main_arg2) = W8 m ρ c (Proc.devRef .tc main_arg2) := W9_of_ne m ρ c main_arg2 (by decide)
theorem at9_arg7 (c : Dev nD) : W9 m ρ c (Proc.devRef .tc main_arg7) = W8 m ρ c (Proc.devRef .tc main_arg7) := W9_of_ne m ρ c main_arg7 (by decide)
theorem at9_arg8 (c : Dev nD) : W9 m ρ c (Proc.devRef .tc main_arg8) = W8 m ρ c (Proc.devRef .tc main_arg8) := W9_of_ne m ρ c main_arg8 (by decide)

end Cert.KernelIdeal.Steps

end
-- ==== Proof.Launch4.lean ====
/-
  Launch 4 of @main (a product): the array it leaves.

  The grid has ten points; point `t` reads rows `5000·t … 5000·t + 4999` of the node array and the whole weight matrix,
  computes the body's value on that block and writes it back to the same rows of the output array. The ten blocks tile
  the 50000 rows, so the output array ends as ONE function of the two input arrays as the launch finds them:
  `Layer.linear`, the row-by-column sums.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch4

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the weight matrix stays put, and no block index leaves its range. -/
theorem index_maps : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every block of rows is some point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's row `(j 0)` is row `rowOf i` of `A` and the weight block is `B`, the body's value at `j`
    is the product's entry `i`. -/
theorem point (x : Vec Ideal S5000x128 .f32) (w : Vec Ideal S128x128 .f32) (A : Nodes.Idx → EReal) (B : Weights.Idx → EReal)
    (j : S5000x128.Idx) (i : Nodes.Idx)
    (hx : ∀ k : Fin 128, x (ix2 (⟨(j 0).val, idx2_lt0 j⟩ : Fin 5000) k) = A (ix2 (rowOf i) k))
    (hw : ∀ k : Fin 128, w (ix2 k (⟨(j 1).val, idx2_lt1 j⟩ : Fin 128)) = B (ix2 k (colOf i))) :
    k4_pay1 (F := Ideal) x w j = linear A B i := by
  refine (congrArg (k4_pay1 (F := Ideal) x w) (block_index j)).trans ((Body.product4_apply x w _ _).trans ?_)
  exact Finset.sum_congr rfl fun k _ => by rw [hx k, hw k]

/-- WHAT POINT `t` WRITES BACK is block `t` of the product of the two arrays as the launch finds them. -/
theorem flushed_eq (c : Dev nD) (t : Fin cfg4.N) :
    (dat4 V c).flushed 2 t = ((cfg4.win 2).blk t).view.read (Elt Ideal) (linear (V c main_v61) (V c main_arg7)) := by
  show (cfg4.win 2).cut (grid4.coords t) ((dat4 V c).after 2 t) = _
  rw [after4_2]
  unfold out4_2
  rw [View.canon_unit_zero zero_offset]
  simp only [View.ld_unit_zero (S := S5000x128) zero_offset, View.ld_unit_zero (S := S128x128) zero_offset]
  obtain ⟨e0, e1, e2, e3, e4, e5⟩ := index_maps t
  funext j
  show k4_pay1 (F := Ideal) (iblk4 V c 0 t) (iblk4 V c 1 t) j
    = linear (V c main_v61) (V c main_arg7) (((cfg4.win 2).blk t).view.emb j)
  refine point (iblk4 V c 0 t) (iblk4 V c 1 t) (V c main_v61) (V c main_arg7) j _ (fun k => ?_) (fun k => ?_)
  · show V c main_v61 (((cfg4.win 0).blk t).view.emb (ix2 (⟨(j 0).val, idx2_lt0 j⟩ : Fin 5000) k)) = V c main_v61 (ix2 _ k)
    refine congrArg (V c main_v61) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg7 (((cfg4.win 1).blk t).view.emb (ix2 k (⟨(j 1).val, idx2_lt1 j⟩ : Fin 128))) = V c main_arg7 (ix2 k _)
    refine congrArg (V c main_arg7) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- THE COVER: row `r` is in the block of the point with block index `r / 5000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- THE ARRAY the launch leaves. -/
theorem array_eq (c : Dev nD) : (dat4 V c).arrAt 2 cfg4.N = linear (V c main_v61) (V c main_arg7) :=
  (dat4 V c).arrAt_eq_of_cover 2 _ (fun t _ => flushed_eq V c t) cover

end Cert.KernelIdeal.Launch4

end
-- ==== Proof.Launch5.lean ====
/-
  Launch 5 of @main (the bias of the last layer): the array it leaves.

  The grid has ten points; point `t` reads rows `5000·t … 5000·t + 4999` of the node array and the one bias row,
  computes the body's value on that block and writes it back to the same rows of the output array. The ten blocks tile
  the 50000 rows, so the output array ends as ONE function of the two input arrays as the launch finds them:
  `Layer.bias`, the bias row added to every node.
-/
import proofs.«164031_j42417097015744_1_alg».proof.Proof.Gen.KernelIdeal.Frame
import proofs.«164031_j42417097015744_1_alg».proof.Proof.Body
import proofs.«164031_j42417097015744_1_alg».proof.Proof.Layer
import Idealize.ShloMosaic.Lib.Pipeline.Value
import Idealize.ShloMosaic.Lib.ValueIdx

noncomputable section

namespace Cert.KernelIdeal.Launch5

open Cert.KernelIdeal Cert.KernelIdeal.Gen Idealize.ShloMosaic Idealize.ShloMosaic.TcCoe Idealize.SL.Sem
open Idealize.ShloMosaic.ValueIdx Cert.Layer
open Idealize.ShloMosaic.Pipeline (Dat)
open scoped BigOperators

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the node block and the output block move together down the rows,
    the bias row stays put, and no block index leaves its range. -/
theorem index_maps : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every block of rows is some point's. -/
theorem index_onto : ∀ q0 : Fin 10, ∃ t : Fin cfg5.N, win5_2.index t = ![q0.val, 0] :=
  (by decide +kernel : ∀ q0 : Fin 10, ∃ t : Fin grid5.N, win5_2.index t = ![q0.val, 0])

/-- An index of a block from its two coordinates. -/
theorem block_index (j : S5000x128.Idx) :
    j = ix2 (⟨(j 0).val, idx2_lt0 j⟩ : Fin 5000) (⟨(j 1).val, idx2_lt1 j⟩ : Fin 128) := by
  funext a; match a with | ⟨0, _⟩ => rfl | ⟨1, _⟩ => rfl

/-- ONE POINT: if the node block's entry `j` is entry `i` of `A` and the bias block's entry of the same column is `B`'s, the
    body's value at `j` is the layer's entry `i`. -/
theorem point (x : Vec Ideal S5000x128 .f32) (b : Vec Ideal S1x128 .f32) (A : Nodes.Idx → EReal) (B : Row.Idx → EReal)
    (j : S5000x128.Idx) (i : Nodes.Idx)
    (hx : x (ix2 (⟨(j 0).val, idx2_lt0 j⟩ : Fin 5000) (⟨(j 1).val, idx2_lt1 j⟩ : Fin 128)) = A i)
    (hb : b (ix2 (0 : Fin 1) (⟨(j 1).val, idx2_lt1 j⟩ : Fin 128)) = B (ix2 (0 : Fin 1) (colOf i))) :
    k5_pay1 (F := Ideal) x b j = bias A B i := by
  refine (congrArg (k5_pay1 (F := Ideal) x b) (block_index j)).trans ((Body.bias5_apply x b _ _).trans ?_)
  rw [hx, hb]
  rfl

/-- WHAT POINT `t` WRITES BACK is block `t` of the layer's function of the two arrays as the launch finds them. -/
theorem flushed_eq (c : Dev nD) (t : Fin cfg5.N) :
    (dat5 V c).flushed 2 t = ((cfg5.win 2).blk t).view.read (Elt Ideal) (bias (V c main_v75) (V c main_v76)) := by
  show (cfg5.win 2).cut (grid5.coords t) ((dat5 V c).after 2 t) = _
  rw [after5_2]
  unfold out5_2
  rw [View.canon_unit_zero zero_offset]
  simp only [View.ld_unit_zero (S := S5000x128) zero_offset, View.ld_unit_zero (S := S1x128) zero_offset]
  obtain ⟨e0, e1, e2, e3, e4, e5⟩ := index_maps t
  funext j
  show k5_pay1 (F := Ideal) (iblk5 V c 0 t) (iblk5 V c 1 t) j
    = bias (V c main_v75) (V c main_v76) (((cfg5.win 2).blk t).view.emb j)
  refine point (iblk5 V c 0 t) (iblk5 V c 1 t) (V c main_v75) (V c main_v76) j _ ?_ ?_
  · show V c main_v75 (((cfg5.win 0).blk t).view.emb (ix2 (⟨(j 0).val, idx2_lt0 j⟩ : Fin 5000) (⟨(j 1).val, idx2_lt1 j⟩ : Fin 128)))
      = V c main_v75 (((cfg5.win 2).blk t).view.emb j)
    refine congrArg (V c main_v75) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  · show V c main_v76 (((cfg5.win 1).blk t).view.emb (ix2 (0 : Fin 1) (⟨(j 1).val, idx2_lt1 j⟩ : Fin 128)))
      = V c main_v76 (ix2 (0 : Fin 1) _)
    refine congrArg (V c main_v76) (funext fun a => Fin.ext ?_)
    match a with
    | ⟨0, _⟩ =>
      show win5_1.index t (0 : Fin 2) * 1 + 1 * 0 = 0
      omega
    | ⟨1, _⟩ =>
      show win5_1.index t (1 : Fin 2) * 128 + 1 * (j 1).val = win5_2.index t (1 : Fin 2) * 128 + 1 * (j 1).val
      omega

/-- An index of the output array is in point `t`'s block iff each coordinate is in the block's range on its axis. -/
theorem mem_blk (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- THE COVER: row `r` is in the block of the point with block index `r / 5000`. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := index_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- THE ARRAY the launch leaves. -/
theorem array_eq (c : Dev nD) : (dat5 V c).arrAt 2 cfg5.N = bias (V c main_v75) (V c main_v76) :=
  (dat5 V c).arrAt_eq_of_cover 2 _ (fun t _ => flushed_eq V c t) cover

end Cert.KernelIdeal.Launch5

end
-- ==== Proof.StepsD.lean ====
/-
  The third layer and the pooling: launch 4 (the product), the aggregation, launch 5 (the bias), the pool.

  The buffer contents at the boundaries of @main's segments are a fold from the launch memory: `W k` is what every buffer
  holds after segment `k`. Each fact below reads ONE buffer at ONE boundary from the boundary before: a buffer a host
  stretch computes is the stretch's operations applied to what the stretch found; the output array of a launch is the
  layer's function of the launch's two input arrays; and a buffer the segment does not write is what it was.
-/
import proofs.«164031_j42417097015744_1_alg».proof.Proof.Gen.KernelIdeal.Frame
import proofs.«164031_j42417097015744_1_alg».proof.Proof.KernelChain
import proofs.«164031_j42417097015744_1_alg».proof.Proof.Layer
import proofs.«164031_j42417097015744_1_alg».proof.Proof.LibAsRow
import proofs.«164031_j42417097015744_1_alg».proof.Proof.Launch4
import proofs.«164031_j42417097015744_1_alg».proof.Proof.Launch5
import Idealize.ShloMosaic.Lib.StableHlo.Run

noncomputable section

namespace Cert.KernelIdeal.Steps

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 10: after launch 4 -/

theorem at10_v62 (c : Dev nD) : W10 m ρ c (Proc.devRef .tc main_v62) = Cert.Layer.linear (W9 m ρ c (Proc.devRef .tc main_v61)) (W9 m ρ c (Proc.devRef .tc main_arg7)) :=
  (W10_arr m ρ c 2).trans (Launch4.array_eq (V9 m ρ) c)
theorem at10_v29 (c : Dev nD) : W10 m ρ c (Proc.devRef .tc main_v29) = W9 m ρ c (Proc.devRef .tc main_v29) := W10_of_ne m ρ c main_v29 (by decide)
theorem at10_v3 (c : Dev nD) : W10 m ρ c (Proc.devRef .tc main_v3) = W9 m ρ c (Proc.devRef .tc main_v3) := W10_of_ne m ρ c main_v3 (by decide)
theorem at10_v6 (c : Dev nD) : W10 m ρ c (Proc.devRef .tc main_v6) = W9 m ρ c (Proc.devRef .tc main_v6) := W10_of_ne m ρ c main_v6 (by decide)
theorem at10_arg2 (c : Dev nD) : W10 m ρ c (Proc.devRef .tc main_arg2) = W9 m ρ c (Proc.devRef .tc main_arg2) := W10_of_ne m ρ c main_arg2 (by decide)
theorem at10_arg8 (c : Dev nD) : W10 m ρ c (Proc.devRef .tc main_arg8) = W9 m ρ c (Proc.devRef .tc main_arg8) := W10_of_ne m ρ c main_arg8 (by decide)

/-! ## Boundary 11: after the host stretch `hostOps5` -/

theorem at11_v75 (c : Dev nD) : W11 m ρ c (Proc.devRef .tc main_v75) = Chain.aggregate (W10 m ρ c (Proc.devRef .tc main_v29)) (W10 m ρ c (Proc.devRef .tc main_v3)) (W10 m ρ c (Proc.devRef .tc main_v6)) (W10 m ρ c (Proc.devRef .tc main_v62)) := by
  dsimp only [W11, hostOps5]
  generalize W10 m ρ c = V
  after_results_simp <;> rfl
theorem at11_v76 (c : Dev nD) : W11 m ρ c (Proc.devRef .tc main_v76) = Cert.Lib.asRow (W10 m ρ c (Proc.devRef .tc main_arg8)) := by
  dsimp only [W11, hostOps5]
  generalize W10 m ρ c = V
  after_results_simp
  exact Cert.Lib.shapeCast_eq_asRow (n := 128) (V (Proc.devRef .tc main_arg8)) shapeCasts_S128_S1x128
theorem at11_arg2 (c : Dev nD) : W11 m ρ c (Proc.devRef .tc main_arg2) = W10 m ρ c (Proc.devRef .tc main_arg2) := by
  dsimp only [W11, hostOps5]
  generalize W10 m ρ c = V
  after_results_simp

/-! ## Boundary 12: after launch 5 -/

theorem at12_v77 (c : Dev nD) : W12 m ρ c (Proc.devRef .tc main_v77) = Cert.Layer.bias (W11 m ρ c (Proc.devRef .tc main_v75)) (W11 m ρ c (Proc.devRef .tc main_v76)) :=
  (W12_arr m ρ c 2).trans (Launch5.array_eq (V11 m ρ) c)
theorem at12_arg2 (c : Dev nD) : W12 m ρ c (Proc.devRef .tc main_arg2) = W11 m ρ c (Proc.devRef .tc main_arg2) := W12_of_ne m ρ c main_arg2 (by decide)

/-! ## Boundary 13: after the host stretch `hostOps6` -/

theorem at13_v80 (c : Dev nD) : W13 m ρ c (Proc.devRef .tc main_v80) = Chain.pool (W12 m ρ c (Proc.devRef .tc main_arg2)) (W12 m ρ c (Proc.devRef .tc main_v77)) := by
  dsimp only [W13, hostOps6]
  generalize W12 m ρ c = V
  after_results_simp <;> rfl

end Cert.KernelIdeal.Steps

end
-- ==== Proof.Network.lean ====
/-
  The whole network over an abstract aggregation and an abstract pooling: three layers — multiply by the weights, aggregate
  along the graph, add the bias, and (first two layers) take the positive part — then pool the nodes of each graph.
  The two programs instantiate `agg` and `pool` with the same composites of gathers and segment sums.
-/
import proofs.«164031_j42417097015744_1_alg».proof.Proof.Layer

noncomputable section

namespace Cert.Layer

/-- `pool (agg (relu(agg (relu(agg (x·W₁)) + b₁)·W₂) + b₂)·W₃) + b₃)`, the biases as `[1, 128]` rows. -/
def network {Out : Type} (agg : (Nodes.Idx → EReal) → (Nodes.Idx → EReal)) (pool : (Nodes.Idx → EReal) → Out)
    (x : Nodes.Idx → EReal) (W₁ : Weights.Idx → EReal) (b₁ : Row.Idx → EReal) (W₂ : Weights.Idx → EReal) (b₂ : Row.Idx → EReal)
    (W₃ : Weights.Idx → EReal) (b₃ : Row.Idx → EReal) : Out :=
  pool (bias (agg (linear (biasRelu (agg (linear (biasRelu (agg (linear x W₁)) b₁) W₂)) b₂) W₃)) b₃)

end Cert.Layer

end
-- ==== Proof.Result.lean ====
/-
  The kernel's result as the network.

  Reading the result buffer at the last boundary back through the thirteen segments, one boundary at a time: the pool of
  the third layer's output; each layer's output the bias (and positive part) of the aggregation of the product of the
  layer before; the messages' end points and weights from the edge list; and every argument as launched.
-/
import proofs.«164031_j42417097015744_1_alg».proof.Proof.StepsA
import proofs.«164031_j42417097015744_1_alg».proof.Proof.StepsB
import proofs.«164031_j42417097015744_1_alg».proof.Proof.StepsC
import proofs.«164031_j42417097015744_1_alg».proof.Proof.StepsD
import proofs.«164031_j42417097015744_1_alg».proof.Proof.Network

noncomputable section

namespace Cert.KernelIdeal.Result

open Cert.KernelIdeal Cert.KernelIdeal.Gen Idealize.ShloMosaic Idealize.ShloMosaic.TcCoe Idealize.SL.Sem Cert.Layer

variable (m : (ℓ : Loc nD τ sig) → Buf (Elt Ideal) ℓ) (ρ : Dev nD → PrngReg)

/-- At launch every buffer holds the launch memory's contents. -/
theorem at0 (c : Dev nD) (r : Ref sig .tc) : W0 m ρ c (Proc.devRef .tc r) = m ((c.tc : Thread nD τ).loc r) := rfl

/-- The result buffer at the last boundary is the network of the arguments. -/
theorem result_eq (c : Dev nD) :
    W13 m ρ c (Proc.devRef .tc main_v80)
      = network (Chain.spread (m ((c.tc : Thread nD τ).loc main_arg1))) (Chain.pool (m ((c.tc : Thread nD τ).loc main_arg2))) (m ((c.tc : Thread nD τ).loc main_arg0)) (m ((c.tc : Thread nD τ).loc main_arg3)) (Cert.Lib.asRow (m ((c.tc : Thread nD τ).loc main_arg4))) (m ((c.tc : Thread nD τ).loc main_arg5)) (Cert.Lib.asRow (m ((c.tc : Thread nD τ).loc main_arg6))) (m ((c.tc : Thread nD τ).loc main_arg7)) (Cert.Lib.asRow (m ((c.tc : Thread nD τ).loc main_arg8))) := by
  simp only [Steps.at13_v80 m ρ c]
  simp only [Steps.at12_v77 m ρ c, Steps.at12_arg2 m ρ c]
  simp only [Steps.at11_v75 m ρ c, Steps.at11_v76 m ρ c, Steps.at11_arg2 m ρ c]
  simp only [Steps.at10_v62 m ρ c, Steps.at10_v29 m ρ c, Steps.at10_v3 m ρ c, Steps.at10_v6 m ρ c, Steps.at10_arg2 m ρ c, Steps.at10_arg8 m ρ c]
  simp only [Steps.at9_v61 m ρ c, Steps.at9_v29 m ρ c, Steps.at9_v3 m ρ c, Steps.at9_v6 m ρ c, Steps.at9_arg2 m ρ c, Steps.at9_arg7 m ρ c, Steps.at9_arg8 m ρ c]
  simp only [Steps.at8_v59 m ρ c, Steps.at8_v60 m ρ c, Steps.at8_v29 m ρ c, Steps.at8_v3 m ρ c, Steps.at8_v6 m ρ c, Steps.at8_arg2 m ρ c, Steps.at8_arg7 m ρ c, Steps.at8_arg8 m ρ c]
  simp only [Steps.at7_v46 m ρ c, Steps.at7_v29 m ρ c, Steps.at7_v3 m ρ c, Steps.at7_v6 m ρ c, Steps.at7_arg2 m ρ c, Steps.at7_arg6 m ρ c, Steps.at7_arg7 m ρ c, Steps.at7_arg8 m ρ c]
  simp only [Steps.at6_v45 m ρ c, Steps.at6_v29 m ρ c, Steps.at6_v3 m ρ c, Steps.at6_v6 m ρ c, Steps.at6_arg2 m ρ c, Steps.at6_arg5 m ρ c, Steps.at6_arg6 m ρ c, Steps.at6_arg7 m ρ c, Steps.at6_arg8 m ρ c]
  simp only [Steps.at5_v43 m ρ c, Steps.at5_v44 m ρ c, Steps.at5_v29 m ρ c, Steps.at5_v3 m ρ c, Steps.at5_v6 m ρ c, Steps.at5_arg2 m ρ c, Steps.at5_arg5 m ρ c, Steps.at5_arg6 m ρ c, Steps.at5_arg7 m ρ c, Steps.at5_arg8 m ρ c]
  simp only [Steps.at4_v30 m ρ c, Steps.at4_v29 m ρ c, Steps.at4_v3 m ρ c, Steps.at4_v6 m ρ c, Steps.at4_arg2 m ρ c, Steps.at4_arg4 m ρ c, Steps.at4_arg5 m ρ c, Steps.at4_arg6 m ρ c, Steps.at4_arg7 m ρ c, Steps.at4_arg8 m ρ c]
  simp only [Steps.at3_v29 m ρ c, Steps.at3_v3 m ρ c, Steps.at3_v6 m ρ c, Steps.at3_arg0 m ρ c, Steps.at3_arg2 m ρ c, Steps.at3_arg3 m ρ c, Steps.at3_arg4 m ρ c, Steps.at3_arg5 m ρ c, Steps.at3_arg6 m ρ c, Steps.at3_arg7 m ρ c, Steps.at3_arg8 m ρ c]
  simp only [Steps.at2_v14 m ρ c, Steps.at2_v3 m ρ c, Steps.at2_v6 m ρ c, Steps.at2_arg0 m ρ c, Steps.at2_arg2 m ρ c, Steps.at2_arg3 m ρ c, Steps.at2_arg4 m ρ c, Steps.at2_arg5 m ρ c, Steps.at2_arg6 m ρ c, Steps.at2_arg7 m ρ c, Steps.at2_arg8 m ρ c]
  simp only [Steps.at1_v3 m ρ c, Steps.at1_v6 m ρ c, Steps.at1_v12 m ρ c, Steps.at1_v13 m ρ c, Steps.at1_cst_2 m ρ c, Steps.at1_arg0 m ρ c, Steps.at1_arg2 m ρ c, Steps.at1_arg3 m ρ c, Steps.at1_arg4 m ρ c, Steps.at1_arg5 m ρ c, Steps.at1_arg6 m ρ c, Steps.at1_arg7 m ρ c, Steps.at1_arg8 m ρ c]
  simp only [at0 m ρ c]
  rfl

end Cert.KernelIdeal.Result

end
-- ==== Proof.ReferenceChain.lean ====
/-
  The graph side of the network: the composites of gathers and segment sums that are the same operations in the two
  programs, named once so that they are carried and never opened.

  With `n = 50000` nodes and `800000` edges, every node also sends a message to itself, so there are `850000` messages:

    sources ei, targets ei   the messages' end points: row 0, respectively row 1, of the edge list followed by 0 … n − 1
    degree dst               the number of messages arriving at each node: ones summed into zeros at the targets
    positive, orZero         `where(deg > 0, deg^(-1/2), 0)`, the inverse square root of the degree
    wrap idx                 an index below zero counted from the end, as an index column for a lookup
    edgeNorm dinv src dst    the weight of a message: `dinv[src] · dinv[dst]`
    aggregate nrm src dst h  `Σ_{messages e arriving at node p} nrm e · h[src e]`: look the features up at the sources,
                             weigh them, and sum them into zeros at the targets
    pool batch h             the node features summed into zeros at each node's graph
-/
import proofs.«164031_j42417097015744_1_alg».proof.ReferenceIdeal
import proofs.«164031_j42417097015744_1_alg».proof.Proof.Gen.ReferenceIdeal
import Idealize.ShloMosaic.PureOps.Ideal

noncomputable section

namespace Cert.ReferenceIdeal.Chain

open Cert.ReferenceIdeal Cert.ReferenceIdeal.Facts₀ Idealize.ShloMosaic

def sources (ei : (⟨S2x800000, .i32⟩ : BufTy).Contents (Elt Ideal)) : (⟨S850000, .i32⟩ : BufTy).Contents (Elt Ideal) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def targets (ei : (⟨S2x800000, .i32⟩ : BufTy).Contents (Elt Ideal)) : (⟨S850000, .i32⟩ : BufTy).Contents (Elt Ideal) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

def degree (dst : (⟨S850000, .i32⟩ : BufTy).Contents (Elt Ideal)) : (⟨S50000, .f32⟩ : BufTy).Contents (Elt Ideal) :=
  Host.scatterAdd (F := Ideal) scatter_S50000_S850000x1_S850000_n_0_0_1 (broadcastInDim S50000 ![] bcast_S_S50000 (constant (F := Ideal) S_ .f32 0x00000000#32))
    (broadcastInDim S850000x1 ![0] bcast_S850000_S850000x1_0 dst) (broadcastInDim S850000 ![] bcast_S_S850000 (constant (F := Ideal) S_ .f32 0x3F800000#32))

def positive (deg : (⟨S50000, .f32⟩ : BufTy).Contents (Elt Ideal)) : (⟨S50000, .i1⟩ : BufTy).Contents (Elt Ideal) :=
  cmpf (F := Ideal) .ogt deg (broadcastInDim S50000 ![] bcast_S_S50000 (constant (F := Ideal) S_ .f32 0x00000000#32))

def orZero (mask : (⟨S50000, .i1⟩ : BufTy).Contents (Elt Ideal)) (val : (⟨S50000, .f32⟩ : BufTy).Contents (Elt Ideal))
    (z : (⟨S_, .f32⟩ : BufTy).Contents (Elt Ideal)) : (⟨S50000, .f32⟩ : BufTy).Contents (Elt Ideal) :=
  select mask val (broadcastInDim S50000 ![] bcast_S_S50000 (id z))

def wrap (idx : (⟨S850000, .i32⟩ : BufTy).Contents (Elt Ideal)) : (⟨S850000x1, .i32⟩ : BufTy).Contents (Elt Ideal) :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

def edgeNorm (dinv : (⟨S50000, .f32⟩ : BufTy).Contents (Elt Ideal)) (src dst : (⟨S850000, .i32⟩ : BufTy).Contents (Elt Ideal)) :
    (⟨S850000, .f32⟩ : BufTy).Contents (Elt Ideal) :=
  mulf (F := Ideal) (φ := .f32) (Host.gather gather_S50000_S850000x1_S850000_n_0_n_n_0_1_1 dinv (wrap src))
    (Host.gather gather_S50000_S850000x1_S850000_n_0_n_n_0_1_1 dinv (wrap dst))

def aggregate (nrm : (⟨S850000, .f32⟩ : BufTy).Contents (Elt Ideal)) (src dst : (⟨S850000, .i32⟩ : BufTy).Contents (Elt Ideal))
    (h : (⟨S50000x128, .f32⟩ : BufTy).Contents (Elt Ideal)) : (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (F := Ideal) (φ := .f32) (broadcastInDim S850000x128 ![0, 1] bcast_S850000x1_S850000x128_0_1 (broadcastInDim S850000x1 ![0] bcast_S850000_S850000x1_0 nrm))
      (Host.gather gather_S50000x128_S850000x1_S850000x128_1_0_n_n_0_1_1128 h (wrap src)))

def pool (batch : (⟨S50000, .i32⟩ : BufTy).Contents (Elt Ideal)) (h : (⟨S50000x128, .f32⟩ : BufTy).Contents (Elt Ideal)) :
    (⟨S512x128, .f32⟩ : BufTy).Contents (Elt Ideal) :=
  Host.scatterAdd (F := Ideal) scatter_S512x128_S50000x1_S50000x128_1_0_0_1
    (broadcastInDim S512x128 ![] bcast_S_S512x128 (constant (F := Ideal) S_ .f32 0x00000000#32))
    (broadcastInDim S50000x1 ![0] bcast_S50000_S50000x1_0 batch) h

/-- The weight of every message, from the edge list alone. -/
def norms (ei : (⟨S2x800000, .i32⟩ : BufTy).Contents (Elt Ideal)) : (⟨S850000, .f32⟩ : BufTy).Contents (Elt Ideal) :=
  edgeNorm (orZero (positive (degree (targets ei))) (Host.rsqrt (F := Ideal) (φ := .f32) (degree (targets ei))) (constant (F := Ideal) S_ .f32 0x00000000#32))
    (sources ei) (targets ei)

/-- One aggregation over the graph the edge list describes. -/
def spread (ei : (⟨S2x800000, .i32⟩ : BufTy).Contents (Elt Ideal)) (h : (⟨S50000x128, .f32⟩ : BufTy).Contents (Elt Ideal)) :
    (⟨S50000x128, .f32⟩ : BufTy).Contents (Elt Ideal) :=
  aggregate (norms ei) (sources ei) (targets ei) h

end Cert.ReferenceIdeal.Chain

end
-- ==== Proof.RefValue.lean ====
/-
  The reference's result as the network.

  The reference's result is one composed term of the arguments. The graph side of it is the composites of
  `Cert.ReferenceIdeal.Chain`; what is left are the three kinds of layer step, which the host spells with whole-array
  operations and which are, entry by entry, the functions of `Cert.Layer`:

    dot_general x W                          = Layer.linear x W        the sum over the contracted axis
    a + spread b                             = Layer.bias a (row b)    `spread b` repeats the bias over the 50000 nodes
    maximum (a + spread b) (spread 0)        = Layer.biasRelu a (row b)

  where `row b` is the bias vector as a `[1, 128]` array.
-/
import proofs.«164031_j42417097015744_1_alg».proof.Proof.RefRun
import proofs.«164031_j42417097015744_1_alg».proof.Proof.ReferenceChain
import proofs.«164031_j42417097015744_1_alg».proof.Proof.Network
import proofs.«164031_j42417097015744_1_alg».proof.Proof.LibAsRow
import proofs.«164031_j42417097015744_1_alg».proof.Proof.LibMatDot
import Idealize.ShloMosaic.Lib.ValueIdx
import Idealize.ShloMosaic.Lib.Pipeline.Value

noncomputable section

namespace Cert.ReferenceIdeal.RefValue

open Cert.ReferenceIdeal Cert.ReferenceIdeal.Facts₀ Idealize.ShloMosaic Idealize.ShloMosaic.TcCoe Idealize.SL.Sem Idealize.ShloMosaic.ValueIdx Cert.Layer
open scoped BigOperators

/-- A bias vector repeated over the 50000 nodes, as the host spells it: into a `[1, 128]` row, then down the rows. -/
def spreadBias (b : (⟨S128, .f32⟩ : BufTy).Contents (Elt Ideal)) : (⟨S50000x128, .f32⟩ : BufTy).Contents (Elt Ideal) :=
  broadcastInDim S50000x128 ![0, 1] bcast_S1x128_S50000x128_0_1 (broadcastInDim S1x128 ![1] bcast_S128_S1x128_1 b)

/-- The zero the positive part is taken against, repeated over the node array. -/
def spreadZero : (⟨S50000x128, .f32⟩ : BufTy).Contents (Elt Ideal) :=
  broadcastInDim S50000x128 ![] bcast_S_S50000x128 (constant (F := Ideal) S_ .f32 0x00000000#32)

theorem spreadBias_apply (b : (⟨S128, .f32⟩ : BufTy).Contents (Elt Ideal)) (p : Fin 50000) (q : Fin 128) :
    spreadBias b (ix2 p q) = Cert.Lib.asRow b (ix2 (0 : Fin 1) q) := by
  unfold spreadBias
  rw [Cert.Lib.broadcastInDim_eq_asRow]
  exact broadcastInDim_apply _ bcast_S1x128_S50000x128_0_1 (Cert.Lib.asRow b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

theorem spreadZero_apply (p : Fin 50000) (q : Fin 128) : spreadZero (ix2 p q) = Ideal.ofBits .f32 0x00000000#32 := by
  unfold spreadZero
  exact broadcastInDim_apply _ bcast_S_S50000x128 (constant (F := Ideal) S_ .f32 0x00000000#32) (ix2 p q) (fun a => a.elim0) (fun a => a.elim0)

/-- The host's product of the node features with a weight matrix is the row-by-column sums. -/
theorem dot_eq (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = linear x w := by
  funext i
  obtain ⟨p, q, rfl⟩ : ∃ (p : Fin 50000) (q : Fin 128), i = ix2 p q := ⟨rowOf i, colOf i, eq_row_col i⟩
  rw [linear_apply]
  exact Cert.Lib.dotGeneral_plain_apply (a := 50000) (K := 128) (b := 128) dot_S50000x128_S128x128_S50000x128_1_0_0_1_n_n.wf none _ x w p q

/-- The host's bias step. -/
theorem bias_eq (a : (⟨S50000x128, .f32⟩ : BufTy).Contents (Elt Ideal)) (b : (⟨S128, .f32⟩ : BufTy).Contents (Elt Ideal)) :
    addf (F := Ideal) (φ := .f32) a (spreadBias b) = bias a (Cert.Lib.asRow b) := by
  funext i
  obtain ⟨p, q, rfl⟩ : ∃ (p : Fin 50000) (q : Fin 128), i = ix2 p q := ⟨rowOf i, colOf i, eq_row_col i⟩
  rw [addf_apply, spreadBias_apply, bias_apply]

/-- The host's bias step followed by the positive part. -/
theorem biasRelu_eq (a : (⟨S50000x128, .f32⟩ : BufTy).Contents (Elt Ideal)) (b : (⟨S128, .f32⟩ : BufTy).Contents (Elt Ideal)) :
    maximumf (F := Ideal) (φ := .f32) (addf (F := Ideal) (φ := .f32) a (spreadBias b)) spreadZero = biasRelu a (Cert.Lib.asRow b) := by
  funext i
  obtain ⟨p, q, rfl⟩ : ∃ (p : Fin 50000) (q : Fin 128), i = ix2 p q := ⟨rowOf i, colOf i, eq_row_col i⟩
  rw [maximumf_apply, addf_apply, spreadBias_apply, spreadZero_apply, biasRelu_apply]

variable (m : (ℓ : Loc nD τ sig) → Buf (Elt Ideal) ℓ)

/-- The reference's composed term, with the graph side folded. -/
theorem res_folded (c : Dev nD) :
    ValueP.res_main_v85 (F := Ideal) m c
      = Chain.pool (m ((c.tc : Thread nD τ).loc main_arg2)) (addf (F := Ideal) (φ := .f32) (Chain.spread (m ((c.tc : Thread nD τ).loc main_arg1)) (Host.dotGeneral (F := Ideal) (φ₁ := .f32) (φ₂ := .f32) dot_S50000x128_S128x128_S50000x128_1_0_0_1_n_n none
          (maximumf (F := Ideal) (φ := .f32) (addf (F := Ideal) (φ := .f32) (Chain.spread (m ((c.tc : Thread nD τ).loc main_arg1)) (Host.dotGeneral (F := Ideal) (φ₁ := .f32) (φ₂ := .f32) dot_S50000x128_S128x128_S50000x128_1_0_0_1_n_n none
            (maximumf (F := Ideal) (φ := .f32) (addf (F := Ideal) (φ := .f32) (Chain.spread (m ((c.tc : Thread nD τ).loc main_arg1)) (Host.dotGeneral (F := Ideal) (φ₁ := .f32) (φ₂ := .f32) dot_S50000x128_S128x128_S50000x128_1_0_0_1_n_n none (m ((c.tc : Thread nD τ).loc main_arg0)) (m ((c.tc : Thread nD τ).loc main_arg3))))
              (spreadBias (m ((c.tc : Thread nD τ).loc main_arg4)))) spreadZero) (m ((c.tc : Thread nD τ).loc main_arg5))))
            (spreadBias (m ((c.tc : Thread nD τ).loc main_arg6)))) spreadZero) (m ((c.tc : Thread nD τ).loc main_arg7))))
          (spreadBias (m ((c.tc : Thread nD τ).loc main_arg8)))) := by
  unfold ValueP.res_main_v85
  rfl

/-- The reference's result is the network of its arguments. -/
theorem res_eq (c : Dev nD) :
    ValueP.res_main_v85 (F := Ideal) m c
      = network (Chain.spread (m ((c.tc : Thread nD τ).loc main_arg1))) (Chain.pool (m ((c.tc : Thread nD τ).loc main_arg2))) (m ((c.tc : Thread nD τ).loc main_arg0)) (m ((c.tc : Thread nD τ).loc main_arg3)) (Cert.Lib.asRow (m ((c.tc : Thread nD τ).loc main_arg4))) (m ((c.tc : Thread nD τ).loc main_arg5)) (Cert.Lib.asRow (m ((c.tc : Thread nD τ).loc main_arg6))) (m ((c.tc : Thread nD τ).loc main_arg7)) (Cert.Lib.asRow (m ((c.tc : Thread nD τ).loc main_arg8))) := by
  rw [res_folded, dot_eq, biasRelu_eq, dot_eq, biasRelu_eq, dot_eq, bias_eq]
  rfl

end Cert.ReferenceIdeal.RefValue

end
-- ==== Proof.lean ====
/-
  A graph network of three layers on 50000 nodes, its dense steps as six tiled kernels, against the plain-array reference.

  Both programs compute, from node features `x`, an edge list, a graph id per node, three weight matrices and three
  bias vectors,

    pool (agg (relu (agg (relu (agg (x·W₁) + b₁) · W₂) + b₂) · W₃) + b₃)

  where `agg` looks the features up at the sources of the messages, weighs each message by the inverse square roots of
  its end points' degrees and sums the messages at their targets, and `pool` sums the nodes of each graph. `agg` and
  `pool` are the SAME host operations in the two programs (`Chain`) and are never opened. The programs differ only in
  the dense steps: where the reference applies `dot_general`, `add` and `maximum` to whole arrays, the kernel launches a
  tiled kernel over ten blocks of 5000 nodes, the products with operands narrowed to bf16. On the extended reals a
  change of float format is the identity and a product accumulated into zero is the plain sum, so each launch leaves
  exactly the reference's array (`Launch0` … `Launch5` against `RefValue`), and no law that needs finite inputs is used.

  The kernel's result is read back through @main's thirteen segments one boundary at a time (`StepsA` … `StepsD`,
  `Result`), over the run that names the final memory (`KernelRun`); the reference's result is its run's composed term
  (`RefRun`, `RefValue`). The idealization rewrote no operation, so `preserves` asks nothing.
-/
import proofs.«164031_j42417097015744_1_alg».proof.Defs
import proofs.«164031_j42417097015744_1_alg».proof.Proof.Gen.Kernel
import proofs.«164031_j42417097015744_1_alg».proof.Proof.Gen.Kernel.Skeleton
import proofs.«164031_j42417097015744_1_alg».proof.Proof.Gen.Kernel.Launch
import proofs.«164031_j42417097015744_1_alg».proof.Proof.Gen.Kernel.Points
import proofs.«164031_j42417097015744_1_alg».proof.Proof.Gen.Kernel.Frame
import proofs.«164031_j42417097015744_1_alg».proof.Proof.Gen.KernelIdeal
import proofs.«164031_j42417097015744_1_alg».proof.Proof.Gen.KernelIdeal.Skeleton
import proofs.«164031_j42417097015744_1_alg».proof.Proof.Gen.KernelIdeal.Launch
import proofs.«164031_j42417097015744_1_alg».proof.Proof.Gen.KernelIdeal.Points
import proofs.«164031_j42417097015744_1_alg».proof.Proof.Gen.KernelIdeal.Frame
import proofs.«164031_j42417097015744_1_alg».proof.Proof.Gen.ReferenceIdeal
import proofs.«164031_j42417097015744_1_alg».proof.Proof.Gen.Pre_finite_inputs
import proofs.«164031_j42417097015744_1_alg».proof.Proof.KernelRun
import proofs.«164031_j42417097015744_1_alg».proof.Proof.Result
import proofs.«164031_j42417097015744_1_alg».proof.Proof.RefRun
import proofs.«164031_j42417097015744_1_alg».proof.Proof.RefValue
import Idealize.ShloMosaic.Adequacy
import Idealize.ShloMosaic.Init

noncomputable section

namespace Cert.Proof

open Idealize.ShloMosaic Idealize.SL.Sem

/-! ## The graph side is one function in the two programs' vocabularies -/

/-- The aggregation over the graph of an edge list: the same operations over the same dimension records. -/
theorem spread_eq (ei : (⟨Cert.KernelIdeal.S2x800000, .i32⟩ : BufTy).Contents (Elt Ideal)) :
    Cert.ReferenceIdeal.Chain.spread ei = Cert.KernelIdeal.Chain.spread ei := rfl

/-- The pooling over the graphs of a batch vector: likewise. -/
theorem pool_eq (batch : (⟨Cert.KernelIdeal.S50000, .i32⟩ : BufTy).Contents (Elt Ideal)) :
    Cert.ReferenceIdeal.Chain.pool batch = Cert.KernelIdeal.Chain.pool batch := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network of their arguments in the result buffer; the arguments agree. -/
theorem algebraic : Cert.algebraic_KernelIdeal_ReferenceIdeal := by
  intro m ρ m' ρ' _ hagree
  refine ⟨fun c => Cert.KernelIdeal.Gen.W13 m ρ c (Proc.devRef .tc Cert.KernelIdeal.main_v80), Cert.KernelIdeal.Run.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  show Cert.ReferenceIdeal.ValueP.res_main_v85 (F := Ideal) m' c
    = Cert.KernelIdeal.Gen.W13 m ρ c (Proc.devRef .tc Cert.KernelIdeal.main_v80)
  rw [Cert.ReferenceIdeal.RefValue.res_eq, Cert.KernelIdeal.Result.result_eq, h0, h1, h2, h3, h4, h5, h6, h7, h8, spread_eq, pool_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
